-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3200000x3 : Shape := ⟨2, ![3200000, 3]⟩
abbrev S_ : Shape := ⟨0, ![]⟩

class Facts : Prop where
  bcast_S_S3200000x3 : S_.BroadcastsInDim S3200000x3 (![] : Fin 0 → Fin S3200000x3.rank)
  reducesTo_S3200000x3_S_d0_1 : S3200000x3.ReducesTo [0, 1] S_
  h_S_ : 0 < S_.numel

variable [Facts]

def fn {F : FTy → Type} [FloatOps F] (main_arg0 : FVec F S3200000x3 .f32) : IVec S_ 1 :=
  let main_v0 : FVec F S3200000x3 .f32 := Host.absf main_arg0
  let main_cst : FVec F S_ .f32 := constant S_ .f32 0x7F800000#32
  let main_v1 : FVec F S3200000x3 .f32 := broadcastInDim S3200000x3 ![] bcast_S_S3200000x3 main_cst
  let main_v2 : IVec S3200000x3 1 := cmpf .olt main_v0 main_v1
  let main_c : IVec S_ 1 := constantI S_ 1 1#1
  let main_v3 : IVec S_ 1 := (fun x v => Host.reduce IntOp.andi x v reducesTo_S3200000x3_S_d0_1 h_S_) main_v2 main_c
  main_v3
-- ==== Kernel.lean ====
abbrev S3200000x3 : Shape := ⟨2, ![3200000, 3]⟩
abbrev S3200000x16 : Shape := ⟨2, ![3200000, 16]⟩
abbrev S8000x3 : Shape := ⟨2, ![8000, 3]⟩
abbrev S8000x16 : Shape := ⟨2, ![8000, 16]⟩
abbrev S3x8000 : Shape := ⟨2, ![3, 8000]⟩
abbrev S1x8000 : Shape := ⟨2, ![1, 8000]⟩
abbrev S16x8000 : Shape := ⟨2, ![16, 8000]⟩

abbrev nBuf : Space → Nat
  | .hbm => 2
  | .vmem => 4
  | .smem => 0
  | _ => 0

abbrev bufTy : (tb : Table) → Fin (tcTables nBuf tb) → BufTy
  | .hbm, ⟨0, _⟩ => ⟨S3200000x3, .f32⟩
  | .hbm, ⟨1, _⟩ => ⟨S3200000x16, .f32⟩
  | .local _ .vmem, ⟨0, _⟩ => ⟨S8000x3, .f32⟩
  | .local _ .vmem, ⟨1, _⟩ => ⟨S8000x3, .f32⟩
  | .local _ .vmem, ⟨2, _⟩ => ⟨S8000x16, .f32⟩
  | .local _ .vmem, ⟨3, _⟩ => ⟨S8000x16, .f32⟩
  | _, _ => ⟨S3200000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S8000x3_S8000x3_0_0 : ∀ a, (![0, 0] : Fin 2 → Nat) a + S8000x3.size a ≤ S8000x3.size a
  h_S8000x3 : 0 < S8000x3.numel
  transposes_S8000x3_p1_0_S3x8000 : S8000x3.Transposes [1, 0] S3x8000
  slices_S3x8000_o0_0_S1x8000 : S3x8000.Slices ![0, 0] S1x8000
  slices_S3x8000_o1_0_S1x8000 : S3x8000.Slices ![1, 0] S1x8000
  slices_S3x8000_o2_0_S1x8000 : S3x8000.Slices ![2, 0] S1x8000
  concatenates_S1x8000_S1x8000_S1x8000_S1x8000_S1x8000_S1x8000_S1x8000_S1x8000_S1x8000_S1x8000_S1x8000_S1x8000_S1x8000_S1x8000_S1x8000_S1x8000_S16x8000_d0 : Shape.Concatenates [S1x8000, S1x8000, S1x8000, S1x8000, S1x8000, S1x8000, S1x8000, S1x8000, S1x8000, S1x8000, S1x8000, S1x8000, S1x8000, S1x8000, S1x8000, S1x8000] S16x8000 0
  transposes_S16x8000_p1_0_S8000x16 : S16x8000.Transposes [1, 0] S8000x16
  inb_S8000x16_S8000x16_0_0 : ∀ a, (![0, 0] : Fin 2 → Nat) a + S8000x16.size a ≤ S8000x16.size a
  h_S8000x16 : 0 < S8000x16.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x3.size a ≤ S3200000x3.size a
  hwx0_0 : ∀ i : grid0.Coords, EltTy.bits .f32 = 32 ∨ (Rect.block (s := S3200000x3) S8000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x16.size a ≤ S3200000x16.size a
  hwx0_1 : ∀ i : grid0.Coords, EltTy.bits .f32 = 32 ∨ (Rect.block (s := S3200000x16) S8000x16.size (cc0_transform_1 i) (hinb0_1 i)).WholeWords (EltTy.packing .f32)

variable [Facts₀]

abbrev win0_0 : Pipeline.Window sig grid0 :=
  Pipeline.Window.ofSpec (Memref.whole main_arg0) S8000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8000x16.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S3200000x3 : Shape := ⟨2, ![3200000, 3]⟩
abbrev S_ : Shape := ⟨0, ![]⟩
abbrev S3200000 : Shape := ⟨1, ![3200000]⟩
abbrev S3200000x1 : Shape := ⟨2, ![3200000, 1]⟩
abbrev S3200000x16 : Shape := ⟨2, ![3200000, 16]⟩

abbrev nBuf : Space → Nat
  | .hbm => 121
  | .vmem => 0
  | .smem => 0
  | _ => 0

abbrev bufTy : (tb : Table) → Fin (tcTables nBuf tb) → BufTy
  | .hbm, ⟨0, _⟩ => ⟨S3200000x3, .f32⟩
  | .hbm, ⟨1, _⟩ => ⟨S3200000x3, .f32⟩
  | .hbm, ⟨2, _⟩ => ⟨S_, .f32⟩
  | .hbm, ⟨3, _⟩ => ⟨S3200000, .f32⟩
  | .hbm, ⟨4, _⟩ => ⟨S3200000x1, .f32⟩
  | .hbm, ⟨5, _⟩ => ⟨S3200000x1, .f32⟩
  | .hbm, ⟨6, _⟩ => ⟨S_, .f32⟩
  | .hbm, ⟨7, _⟩ => ⟨S3200000x1, .f32⟩
  | .hbm, ⟨8, _⟩ => ⟨S3200000x1, .f32⟩
  | .hbm, ⟨9, _⟩ => ⟨S3200000x3, .f32⟩
  | .hbm, ⟨10, _⟩ => ⟨S3200000x3, .f32⟩
  | .hbm, ⟨11, _⟩ => ⟨S3200000x1, .f32⟩
  | .hbm, ⟨12, _⟩ => ⟨S3200000, .f32⟩
  | .hbm, ⟨13, _⟩ => ⟨S3200000x1, .f32⟩
  | .hbm, ⟨14, _⟩ => ⟨S3200000, .f32⟩
  | .hbm, ⟨15, _⟩ => ⟨S3200000x1, .f32⟩
  | .hbm, ⟨16, _⟩ => ⟨S3200000, .f32⟩
  | .hbm, ⟨17, _⟩ => ⟨S_, .f32⟩
  | .hbm, ⟨18, _⟩ => ⟨S3200000, .f32⟩
  | .hbm, ⟨19, _⟩ => ⟨S_, .f32⟩
  | .hbm, ⟨20, _⟩ => ⟨S3200000, .f32⟩
  | .hbm, ⟨21, _⟩ => ⟨S3200000, .f32⟩
  | .hbm, ⟨22, _⟩ => ⟨S_, .f32⟩
  | .hbm, ⟨23, _⟩ => ⟨S3200000, .f32⟩
  | .hbm, ⟨24, _⟩ => ⟨S3200000, .f32⟩
  | .hbm, ⟨25, _⟩ => ⟨S_, .f32⟩
  | .hbm, ⟨26, _⟩ => ⟨S3200000, .f32⟩
  | .hbm, ⟨27, _⟩ => ⟨S3200000, .f32⟩
  | .hbm, ⟨28, _⟩ => ⟨S3200000, .f32⟩
  | .hbm, ⟨29, _⟩ => ⟨S3200000, .f32⟩
  | .hbm, ⟨30, _⟩ => ⟨S3200000, .f32⟩
  | .hbm, ⟨31, _⟩ => ⟨S3200000, .f32⟩
  | .hbm, ⟨32, _⟩ => ⟨S_, .f32⟩
  | .hbm, ⟨33, _⟩ => ⟨S3200000, .f32⟩
  | .hbm, ⟨34, _⟩ => ⟨S3200000, .f32⟩
  | .hbm, ⟨35, _⟩ => ⟨S3200000, .f32⟩
  | .hbm, ⟨36, _⟩ => ⟨S_, .f32⟩
  | .hbm, ⟨37, _⟩ => ⟨S3200000, .f32⟩
  | .hbm, ⟨38, _⟩ => ⟨S3200000, .f32⟩
  | .hbm, ⟨39, _⟩ => ⟨S3200000, .f32⟩
  | .hbm, ⟨40, _⟩ => ⟨S_, .f32⟩
  | .hbm, ⟨41, _⟩ => ⟨S3200000, .f32⟩
  | .hbm, ⟨42, _⟩ => ⟨S3200000, .f32⟩
  | .hbm, ⟨43, _⟩ => ⟨S3200000, .f32⟩
  | .hbm, ⟨44, _⟩ => ⟨S_, .f32⟩
  | .hbm, ⟨45, _⟩ => ⟨S3200000, .f32⟩
  | .hbm, ⟨46, _⟩ => ⟨S3200000, .f32⟩
  | .hbm, ⟨47, _⟩ => ⟨S_, .f32⟩
  | .hbm, ⟨48, _⟩ => ⟨S3200000, .f32⟩
  | .hbm, ⟨49, _⟩ => ⟨S3200000, .f32⟩
  | .hbm, ⟨50, _⟩ => ⟨S3200000, .f32⟩
  | .hbm, ⟨51, _⟩ => ⟨S3200000, .f32⟩
  | .hbm, ⟨52, _⟩ => ⟨S3200000, .f32⟩
  | .hbm, ⟨53, _⟩ => ⟨S3200000, .f32⟩
  | .hbm, ⟨54, _⟩ => ⟨S_, .f32⟩
  | .hbm, ⟨55, _⟩ => ⟨S3200000, .f32⟩
  | .hbm, ⟨56, _⟩ => ⟨S3200000, .f32⟩
  | .hbm, ⟨57, _⟩ => ⟨S3200000, .f32⟩
  | .hbm, ⟨58, _⟩ => ⟨S3200000, .f32⟩
  | .hbm, ⟨59, _⟩ => ⟨S3200000, .f32⟩
  | .hbm, ⟨60, _⟩ => ⟨S_, .f32⟩
  | .hbm, ⟨61, _⟩ => ⟨S3200000, .f32⟩
  | .hbm, ⟨62, _⟩ => ⟨S3200000, .f32⟩
  | .hbm, ⟨63, _⟩ => ⟨S_, .f32⟩
  | .hbm, ⟨64, _⟩ => ⟨S3200000, .f32⟩
  | .hbm, ⟨65, _⟩ => ⟨S3200000, .f32⟩
  | .hbm, ⟨66, _⟩ => ⟨S3200000, .f32⟩
  | .hbm, ⟨67, _⟩ => ⟨S_, .f32⟩
  | .hbm, ⟨68, _⟩ => ⟨S3200000, .f32⟩
  | .hbm, ⟨69, _⟩ => ⟨S3200000, .f32⟩
  | .hbm, ⟨70, _⟩ => ⟨S3200000, .f32⟩
  | .hbm, ⟨71, _⟩ => ⟨S_, .f32⟩
  | .hbm, ⟨72, _⟩ => ⟨S3200000, .f32⟩
  | .hbm, ⟨73, _⟩ => ⟨S3200000, .f32⟩
  | .hbm, ⟨74, _⟩ => ⟨S3200000, .f32⟩
  | .hbm, ⟨75, _⟩ => ⟨S_, .f32⟩
  | .hbm, ⟨76, _⟩ => ⟨S3200000, .f32⟩
  | .hbm, ⟨77, _⟩ => ⟨S3200000, .f32⟩
  | .hbm, ⟨78, _⟩ => ⟨S_, .f32⟩
  | .hbm, ⟨79, _⟩ => ⟨S3200000, .f32⟩
  | .hbm, ⟨80, _⟩ => ⟨S3200000, .f32⟩
  | .hbm, ⟨81, _⟩ => ⟨S_, .f32⟩
  | .hbm, ⟨82, _⟩ => ⟨S3200000, .f32⟩
  | .hbm, ⟨83, _⟩ => ⟨S3200000, .f32⟩
  | .hbm, ⟨84, _⟩ => ⟨S3200000, .f32⟩
  | .hbm, ⟨85, _⟩ => ⟨S3200000, .f32⟩
  | .hbm, ⟨86, _⟩ => ⟨S_, .f32⟩
  | .hbm, ⟨87, _⟩ => ⟨S3200000, .f32⟩
  | .hbm, ⟨88, _⟩ => ⟨S3200000, .f32⟩
  | .hbm, ⟨89, _⟩ => ⟨S_, .f32⟩
  | .hbm, ⟨90, _⟩ => ⟨S3200000, .f32⟩
  | .hbm, ⟨91, _⟩ => ⟨S3200000, .f32⟩
  | .hbm, ⟨92, _⟩ => ⟨S3200000, .f32⟩
  | .hbm, ⟨93, _⟩ => ⟨S3200000, .f32⟩
  | .hbm, ⟨94, _⟩ => ⟨S_, .f32⟩
  | .hbm, ⟨95, _⟩ => ⟨S3200000, .f32⟩
  | .hbm, ⟨96, _⟩ => ⟨S3200000, .f32⟩
  | .hbm, ⟨97, _⟩ => ⟨S3200000, .f32⟩
  | .hbm, ⟨98, _⟩ => ⟨S3200000, .f32⟩
  | .hbm, ⟨99, _⟩ => ⟨S3200000, .f32⟩
  | .hbm, ⟨100, _⟩ => ⟨S3200000, .f32⟩
  | .hbm, ⟨101, _⟩ => ⟨S_, .f32⟩
  | .hbm, ⟨102, _⟩ => ⟨S3200000, .f32⟩
  | .hbm, ⟨103, _⟩ => ⟨S3200000, .f32⟩
  | .hbm, ⟨104, _⟩ => ⟨S3200000x1, .f32⟩
  | .hbm, ⟨105, _⟩ => ⟨S3200000x1, .f32⟩
  | .hbm, ⟨106, _⟩ => ⟨S3200000x1, .f32⟩
  | .hbm, ⟨107, _⟩ => ⟨S3200000x1, .f32⟩
  | .hbm, ⟨108, _⟩ => ⟨S3200000x1, .f32⟩
  | .hbm, ⟨109, _⟩ => ⟨S3200000x1, .f32⟩
  | .hbm, ⟨110, _⟩ => ⟨S3200000x1, .f32⟩
  | .hbm, ⟨111, _⟩ => ⟨S3200000x1, .f32⟩
  | .hbm, ⟨112, _⟩ => ⟨S3200000x1, .f32⟩
  | .hbm, ⟨113, _⟩ => ⟨S3200000x1, .f32⟩
  | .hbm, ⟨114, _⟩ => ⟨S3200000x1, .f32⟩
  | .hbm, ⟨115, _⟩ => ⟨S3200000x1, .f32⟩
  | .hbm, ⟨116, _⟩ => ⟨S3200000x1, .f32⟩
  | .hbm, ⟨117, _⟩ => ⟨S3200000x1, .f32⟩
  | .hbm, ⟨118, _⟩ => ⟨S3200000x1, .f32⟩
  | .hbm, ⟨119, _⟩ => ⟨S3200000x1, .f32⟩
  | .hbm, ⟨120, _⟩ => ⟨S3200000x16, .f32⟩
  | _, _ => ⟨S3200000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_cst_11 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_13 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩
abbrev main_cst_16 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_17 : Ref sig .tc := ⟨.hbm, 86, rfl⟩
abbrev main_v63 : Ref sig .tc := ⟨.hbm, 87, rfl⟩
abbrev main_v64 : Ref sig .tc := ⟨.hbm, 88, rfl⟩
abbrev main_cst_18 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_19 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_20 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩

abbrev nD : Nat := 1
abbrev τ : Topo := Topo.v7x

variable {F : FTy → Type} [FloatOps F]

class Facts₀ : Prop where
  reducesTo_S3200000x3_S3200000_d1 : S3200000x3.ReducesTo [1] S3200000
  h_S_ : 0 < S_.numel
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S3200000x1_S3200000x3_0_1 : S3200000x1.BroadcastsInDim S3200000x3 (![0, 1] : Fin 2 → Fin S3200000x3.rank)
  slices_S3200000x3_S3200000x1_0_0 : S3200000x3.Slices ![0, 0] S3200000x1
  shapeCasts_S3200000x1_S3200000 : S3200000x1.ShapeCasts S3200000
  slices_S3200000x3_S3200000x1_0_1 : S3200000x3.Slices ![0, 1] S3200000x1
  slices_S3200000x3_S3200000x1_0_2 : S3200000x3.Slices ![0, 2] S3200000x1
  bcast_S_S3200000 : S_.BroadcastsInDim S3200000 (![] : Fin 0 → Fin S3200000.rank)
  concatenates_S3200000x1_S3200000x1_S3200000x1_S3200000x1_S3200000x1_S3200000x1_S3200000x1_S3200000x1_S3200000x1_S3200000x1_S3200000x1_S3200000x1_S3200000x1_S3200000x1_S3200000x1_S3200000x1_S3200000x16_d1 : Shape.Concatenates [S3200000x1, S3200000x1, S3200000x1, S3200000x1, S3200000x1, S3200000x1, S3200000x1, S3200000x1, S3200000x1, S3200000x1, S3200000x1, S3200000x1, S3200000x1, S3200000x1, S3200000x1, S3200000x1] S3200000x16 1

variable [Facts₀]

class Facts : Prop extends Facts₀ where

variable [Facts]
-- ==== Proof.SHSpec.lean ====
/-
  Real spherical harmonics up to degree 3 of a normalised 3-vector, on the extended reals.

  A row (a, b, c) is first normalised: with d = max (sqrt (a² + b² + c²)) ε, the unit vector is
  (a, b, c) / d. One program multiplies each component by the reciprocal 1 / d, the other divides each component
  by d; the sum of squares is spelt (a² + b²) + c² in one and 0 + Σₖ rowₖ² in the other. The sixteen polynomials
  of the unit vector are then the same arithmetic, operation for operation, with the same coefficient words.

  The law that joins the two spellings: d ≥ ε > 0, so d ≠ 0, and off zero the quotient x / d is x · d⁻¹ while
  1 / d is d⁻¹; hence x · (1 / d) = x / d at EVERY extended real x and d ≥ ε — no finiteness is needed.
-/
import Idealize.ShloMosaic.PureOps.Ideal
import Idealize.ShloMosaic.PureOps.Ideal.Laws
import Idealize.ShloMosaic.PureOps.IdealRules
import Idealize.ShloMosaic.Lib.ValueIdx

noncomputable section

namespace Cert.SH

open Idealize.ShloMosaic Idealize.ShloMosaic.ValueIdx

/-! ## The sixteen polynomials -/

/-- The sixteen harmonics of a vector (x, y, z), in the order l = 0; l = 1 (x, y, z); l = 2 (five); l = 3 (seven).
    The degree-3 ones are built from two of the degree-2 ones, `s20 = (√15·x)·z` and `s24 = (√15/2)·(z² − x²)`.
    Coefficients are kept as their float words: the same word stands on both sides and is never evaluated. -/
def sh (x y z : EReal) : Fin 16 → EReal
  | ⟨0, _⟩ => Ideal.ofBits .f32 0x3F800000#32
  | ⟨1, _⟩ => Ideal.ofBits .f32 0x3FDDB3D7#32 * x
  | ⟨2, _⟩ => Ideal.ofBits .f32 0x3FDDB3D7#32 * y
  | ⟨3, _⟩ => Ideal.ofBits .f32 0x3FDDB3D7#32 * z
  | ⟨4, _⟩ => Ideal.ofBits .f32 0x4077DEF6#32 * x * z
  | ⟨5, _⟩ => Ideal.ofBits .f32 0x4077DEF6#32 * x * y
  | ⟨6, _⟩ => Ideal.ofBits .f32 0x400F1BBD#32 * (y * y - Ideal.ofBits .f32 0x3F000000#32 * (x * x + z * z))
  | ⟨7, _⟩ => Ideal.ofBits .f32 0x4077DEF6#32 * y * z
  | ⟨8, _⟩ => Ideal.ofBits .f32 0x3FF7DEF6#32 * (z * z - x * x)
  | ⟨9, _⟩ => Ideal.ofBits .f32 0x3F8A417C#32 *
      (Ideal.ofBits .f32 0x4077DEF6#32 * x * z * z + Ideal.ofBits .f32 0x3FF7DEF6#32 * (z * z - x * x) * x)
  | ⟨10, _⟩ => Ideal.ofBits .f32 0x402953FD#32 * (Ideal.ofBits .f32 0x4077DEF6#32 * x * z) * y
  | ⟨11, _⟩ => Ideal.ofBits .f32 0x3FCF623A#32 * (Ideal.ofBits .f32 0x40800000#32 * (y * y) - (x * x + z * z)) * x
  | ⟨12, _⟩ => Ideal.ofBits .f32 0x3FA953FD#32 * y *
      (Ideal.ofBits .f32 0x40000000#32 * (y * y) - Ideal.ofBits .f32 0x40400000#32 * (x * x + z * z))
  | ⟨13, _⟩ => Ideal.ofBits .f32 0x3FCF623A#32 * z * (Ideal.ofBits .f32 0x40800000#32 * (y * y) - (x * x + z * z))
  | ⟨14, _⟩ => Ideal.ofBits .f32 0x402953FD#32 * (Ideal.ofBits .f32 0x3FF7DEF6#32 * (z * z - x * x)) * y
  | ⟨15, _⟩ => Ideal.ofBits .f32 0x3F8A417C#32 *
      (Ideal.ofBits .f32 0x3FF7DEF6#32 * (z * z - x * x) * z - Ideal.ofBits .f32 0x4077DEF6#32 * x * z * x)
  | ⟨n + 16, h⟩ => absurd h (Nat.not_lt.2 (Nat.le_add_left 16 n))

/-! ## The two spellings of the normalisation -/

/-- The reciprocal of the clamped norm, the sum of squares associated to the left. -/
def recipNorm (ρ : Fin 3 → EReal) : EReal :=
  Ideal.div (Ideal.ofBits .f32 0x3F800000#32)
    (max (Ideal.sqrt (ρ 0 * ρ 0 + ρ 1 * ρ 1 + ρ 2 * ρ 2)) (Ideal.ofBits .f32 0x2B8CBCCC#32))

/-- The clamped norm, the sum of squares a sum over the three components started from the zero word. -/
def clampNorm (ρ : Fin 3 → EReal) : EReal :=
  max (Ideal.sqrt (Ideal.ofBits .f32 0x00000000#32 + ∑ k : Fin 3, ρ k * ρ k)) (Ideal.ofBits .f32 0x2B8CBCCC#32)

/-- Harmonic `n` of the row `ρ`, each component multiplied by the reciprocal norm. -/
def shMul (ρ : Fin 3 → EReal) (n : Fin 16) : EReal :=
  sh (ρ 0 * recipNorm ρ) (ρ 1 * recipNorm ρ) (ρ 2 * recipNorm ρ) n

/-- Harmonic `n` of the row `ρ`, each component divided by the norm. -/
def shDiv (ρ : Fin 3 → EReal) (n : Fin 16) : EReal :=
  sh (Ideal.div (ρ 0) (clampNorm ρ)) (Ideal.div (ρ 1) (clampNorm ρ)) (Ideal.div (ρ 2) (clampNorm ρ)) n

/-! ## The law -/

/-- The word of 1.0 denotes 1. -/
theorem one_word : Ideal.ofBits .f32 0x3F800000#32 = 1 := IdealRules.sign_bit.ideal_onePat .f32

/-- The clamp ε (the float nearest 1e-12) is a positive real: a normal number with a clear sign bit. -/
theorem eps_pos : (0 : EReal) < Ideal.ofBits .f32 0x2B8CBCCC#32 := by
  simp [Ideal.ofBits, Ideal.ieee, -EReal.coe_mul]

/-- The clamped norm is not zero: it is at least ε. -/
theorem clampNorm_ne_zero (ρ : Fin 3 → EReal) : clampNorm ρ ≠ 0 :=
  (lt_of_lt_of_le eps_pos (le_max_right _ _)).ne'

/-- The two sums of squares are one extended real: adding the zero word changes nothing, and a sum over three
    components is the left-associated sum. -/
theorem sumsq_eq (ρ : Fin 3 → EReal) :
    Ideal.ofBits .f32 0x00000000#32 + ∑ k : Fin 3, ρ k * ρ k = ρ 0 * ρ 0 + ρ 1 * ρ 1 + ρ 2 * ρ 2 := by
  rw [Ideal.ofBits_zero_f32, zero_add, Fin.sum_univ_three]

/-- Multiplying by the reciprocal of the clamped norm is dividing by it, at every extended real. -/
theorem mul_recipNorm (x : EReal) (ρ : Fin 3 → EReal) : x * recipNorm ρ = Ideal.div x (clampNorm ρ) := by
  have hd := clampNorm_ne_zero ρ
  unfold clampNorm at hd ⊢
  rw [sumsq_eq] at hd ⊢
  unfold recipNorm
  rw [one_word, Ideal.div, Ideal.div, if_neg hd, if_neg hd, one_mul]

/-- The two spellings give the same harmonics. -/
theorem shMul_eq_shDiv (ρ : Fin 3 → EReal) (n : Fin 16) : shMul ρ n = shDiv ρ n := by
  unfold shMul shDiv
  rw [mul_recipNorm, mul_recipNorm, mul_recipNorm]

/-! ## The whole array -/

/-- The result array as one function of the argument array: entry (r, n) is harmonic `n` of row `r`. -/
def G (X : (⟨2, ![3200000, 3]⟩ : Shape).Idx → EReal) : (⟨2, ![3200000, 16]⟩ : Shape).Idx → EReal :=
  fun i => shMul (fun k => X (ix2 (n0 := 3200000) (n1 := 3) (i 0) k)) (i 1)

end Cert.SH

end
-- ==== Proof.KernelRead.lean ====
/-
  What one grid point leaves in its output block: entry (r, n) of the [8000,16] block is harmonic `n` of row `r` of
  the [8000,3] input block, each component multiplied by the reciprocal of the clamped norm.

  The body transposes the input block to three lanes of length 8000, computes sixteen lanes from them by pointwise
  arithmetic, stacks the sixteen lanes and transposes back. The value leg reads the two transposes and the stack:
  entry (r, n) of the block is operand `n` of the stack at lane position r. What is left is that operand `n` at
  position r is the polynomial of the three input lanes at r, and that input lane k at r is entry (r, k) of the block.
-/
import proofs.«105756_j2241972929171_2_alg».proof.Proof.KernelValue
import proofs.«105756_j2241972929171_2_alg».proof.Proof.SHSpec
import Idealize.ShloMosaic.Lib.ValueLayout
import Idealize.ShloMosaic.Lib.ValueIdx

noncomputable section

namespace Cert.KernelIdeal.BlockValue

open Cert.KernelIdeal Cert.KernelIdeal.Gen Cert.KernelIdeal.ValueP Cert.SH
open Idealize.ShloMosaic Idealize.ShloMosaic.ValueIdx

/-! ## A lane of the transposed input block -/

/-- Lane k of the transposed block, at position r, is entry (r, k) of the block: a slice of one row of the
    transpose, then the transpose itself. -/
theorem lane0 (P0 : Vec Ideal S8000x3 .f32) (r : Fin 8000) :
    extractStridedSlice S1x8000 ![0, 0] (transpose S3x8000 [1, 0] P0 transposes_S8000x3_p1_0_S3x8000) slices_S3x8000_o0_0_S1x8000
      (ix2 (n0 := 1) (n1 := 8000) 0 r) = P0 (ix2 (n0 := 8000) (n1 := 3) r 0) :=
  (slice2_axis0_apply 0 _ slices_S3x8000_o0_0_S1x8000 (0 : Fin 1) r (0 : Fin 3) rfl).trans
    (transpose_ix2_apply P0 transposes_S8000x3_p1_0_S3x8000 (0 : Fin 3) r)
theorem lane1 (P0 : Vec Ideal S8000x3 .f32) (r : Fin 8000) :
    extractStridedSlice S1x8000 ![1, 0] (transpose S3x8000 [1, 0] P0 transposes_S8000x3_p1_0_S3x8000) slices_S3x8000_o1_0_S1x8000
      (ix2 (n0 := 1) (n1 := 8000) 0 r) = P0 (ix2 (n0 := 8000) (n1 := 3) r 1) :=
  (slice2_axis0_apply 1 _ slices_S3x8000_o1_0_S1x8000 (0 : Fin 1) r (1 : Fin 3) rfl).trans
    (transpose_ix2_apply P0 transposes_S8000x3_p1_0_S3x8000 (1 : Fin 3) r)
theorem lane2 (P0 : Vec Ideal S8000x3 .f32) (r : Fin 8000) :
    extractStridedSlice S1x8000 ![2, 0] (transpose S3x8000 [1, 0] P0 transposes_S8000x3_p1_0_S3x8000) slices_S3x8000_o2_0_S1x8000
      (ix2 (n0 := 1) (n1 := 8000) 0 r) = P0 (ix2 (n0 := 8000) (n1 := 3) r 2) :=
  (slice2_axis0_apply 2 _ slices_S3x8000_o2_0_S1x8000 (0 : Fin 1) r (2 : Fin 3) rfl).trans
    (transpose_ix2_apply P0 transposes_S8000x3_p1_0_S3x8000 (2 : Fin 3) r)

/-! ## An operand of the stack at a lane position -/

/-- Operand `n` of the stack, at any lane position `i` where the three input lanes hold ρ 0, ρ 1, ρ 2, is harmonic `n`
    of ρ with each component multiplied by the reciprocal norm: the body's pointwise operations are the polynomial's,
    in the same order, on the same coefficient words. -/
theorem operand_apply (P0 : Vec Ideal S8000x3 .f32) (i : S1x8000.Idx) (ρ : Fin 3 → EReal)
    (h0 : extractStridedSlice S1x8000 ![0, 0] (transpose S3x8000 [1, 0] P0 transposes_S8000x3_p1_0_S3x8000) slices_S3x8000_o0_0_S1x8000 i = ρ 0)
    (h1 : extractStridedSlice S1x8000 ![1, 0] (transpose S3x8000 [1, 0] P0 transposes_S8000x3_p1_0_S3x8000) slices_S3x8000_o1_0_S1x8000 i = ρ 1)
    (h2 : extractStridedSlice S1x8000 ![2, 0] (transpose S3x8000 [1, 0] P0 transposes_S8000x3_p1_0_S3x8000) slices_S3x8000_o2_0_S1x8000 i = ρ 2)
    (n : Fin 16) : Cat1_0 P0 n i = shMul ρ n := by
  unfold shMul recipNorm
  rw [← h0, ← h1, ← h2]
  match n with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨k + 16, h⟩ => exact absurd h (Nat.not_lt.2 (Nat.le_add_left 16 k))

/-! ## The block -/

theorem hz : (![0, 0] : Fin 2 → Nat) = fun _ => 0 := funext fun a => by fin_cases a <;> rfl

/-- Entry (r, n) of the block a grid point leaves is harmonic `n` of row `r` of its input block. -/
theorem block_apply (x0 : Vec Ideal S8000x3 .f32) (r : Fin 8000) (n : Fin 16) :
    out0_1 x0 (ix2 (n0 := 8000) (n1 := 16) r n) = shMul (fun k => x0 (ix2 (n0 := 8000) (n1 := 3) r k)) n := by
  unfold out0_1
  simp only [View.ld_unit_zero (S := S8000x3) hz]
  refine (canon1_eq x0 (ix2 (n0 := 8000) (n1 := 16) r n)).trans ?_
  have e : ix1_0 (ix2 (n0 := 8000) (n1 := 16) r n) = ix2 (n0 := 1) (n1 := 8000) 0 r :=
    funext fun a => by match a with | ⟨0, _⟩ => rfl | ⟨1, _⟩ => rfl
  show Cat1_0 x0 n (ix1_0 (ix2 (n0 := 8000) (n1 := 16) r n)) = _
  exact operand_apply x0 _ _ (by rw [e]; exact lane0 x0 r) (by rw [e]; exact lane1 x0 r) (by rw [e]; exact lane2 x0 r) n

end Cert.KernelIdeal.BlockValue

end
-- ==== Proof.KernelArray.lean ====
/-
  From blocks to the array. The grid has 400 points; point t fetches rows 8000·t … 8000·t + 7999 of the [3200000,3]
  argument and writes back rows 8000·t … 8000·t + 7999 of the [3200000,16] result (both index maps are (t, 0)).
  Row p of the block a point writes is the sixteen harmonics of row p of the block it fetched, which is row
  8000·t + p of the argument: so what point t writes back is block t of ONE function `G` of the argument array.
  The blocks cover the result (row R lies in block R / 8000), hence the result array ends as `G` of the argument.
-/
import proofs.«105756_j2241972929171_2_alg».proof.Proof.KernelRead
import Idealize.ShloMosaic.Lib.Pipeline.Value

noncomputable section

namespace Cert.KernelIdeal.ArrayValue

open Cert.KernelIdeal Cert.KernelIdeal.Gen Cert.KernelIdeal.ValueP Cert.KernelIdeal.BlockValue Cert.SH
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps, decided over the 400 grid points: on axis 0 both windows' block index is the point's
    position, on axis 1 it is zero. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row p of the block point t fetches is row 8000·t + p of the argument. -/
theorem fetched_row (c : Dev nD) (t : Fin cfg0.N) (p : Fin 8000) (k : Fin 3) (R : Fin 3200000)
    (hR : R.val = 8000 * t.val + p.val) :
    (iblk m c 0 t : Vec Ideal S8000x3 .f32) (ix2 (n0 := 8000) (n1 := 3) p k)
      = (V m c main_arg0 : S3200000x3.Idx → Elt Ideal .f32) (ix2 (n0 := 3200000) (n1 := 3) R k) := by
  obtain ⟨e0, e1, -, -⟩ := idx_facts t
  show V m c main_arg0 (((cfg0.win 0).blk t).view.emb (ix2 (n0 := 8000) (n1 := 3) p k)) = V m c main_arg0 _
  refine congrArg _ (funext fun a => Fin.ext ?_)
  match a with
  | ⟨0, _⟩ => show win0_0.index t (0 : Fin 2) * 8000 + 1 * p.val = R.val; rw [e0, hR]; omega
  | ⟨1, _⟩ => show win0_0.index t (1 : Fin 2) * 3 + 1 * k.val = k.val; rw [e1]; omega

/-- What point t writes back is block t of `G` of the argument array as the region finds it. -/
theorem flushed_eq (c : Dev nD) (t : Fin cfg0.N) :
    (dats m 0 c).flushed 1 t = ((cfg0.win 1).blk t).view.read (Elt Ideal) (G (V m c main_arg0)) := by
  rw [flushed1]
  obtain ⟨-, -, e2, e3⟩ := idx_facts t
  have ht : t.val < 400 := Nat.lt_of_lt_of_eq t.isLt (N_0 : cfg0.N = 400)
  funext j
  have hj0 : (j 0).val < 8000 := (j 0).isLt
  have hj1 : (j 1).val < 16 := (j 1).isLt
  show out0_1 (iblk m c 0 t) j = G (V m c main_arg0) (((cfg0.win 1).blk t).view.emb j)
  -- the block index by its coordinates, and the array index under it
  have hjj : (j : S8000x16.Idx) = ix2 (⟨(j 0).val, hj0⟩ : Fin 8000) (⟨(j 1).val, hj1⟩ : Fin 16) :=
    funext fun a => by match a with | ⟨0, _⟩ => rfl | ⟨1, _⟩ => rfl
  have hemb : (((cfg0.win 1).blk t).view.emb j : S3200000x16.Idx)
      = ix2 (⟨8000 * t.val + (j 0).val, by omega⟩ : Fin 3200000) (⟨(j 1).val, hj1⟩ : Fin 16) :=
    funext fun a => Fin.ext (by
      match a with
      | ⟨0, _⟩ => show win0_1.index t (0 : Fin 2) * 8000 + 1 * (j 0).val = 8000 * t.val + (j 0).val; rw [e2]; omega
      | ⟨1, _⟩ => show win0_1.index t (1 : Fin 2) * 16 + 1 * (j 1).val = (j 1).val; rw [e3]; omega)
  refine Eq.trans (congrArg (out0_1 (iblk m c 0 t)) hjj) ?_
  refine Eq.trans ?_ (congrArg (G (V m c main_arg0)) hemb.symm)
  refine (block_apply (iblk m c 0 t) ⟨(j 0).val, hj0⟩ ⟨(j 1).val, hj1⟩).trans ?_
  show shMul _ _ = shMul (fun k => (V m c main_arg0 : S3200000x3.Idx → Elt Ideal .f32)
    (ix2 (n0 := 3200000) (n1 := 3) ⟨8000 * t.val + (j 0).val, by omega⟩ k)) ⟨(j 1).val, hj1⟩
  exact congrArg (fun ρ' => shMul ρ' ⟨(j 1).val, hj1⟩) (funext fun k => fetched_row m c t ⟨(j 0).val, hj0⟩ k _ rfl)

/-- An index of the result array is in point t's block iff each coordinate is in the block's range on its axis. -/
theorem mem_blk (t : Fin cfg0.N) (i : S3200000x16.Idx) :
    i ∈ ((cfg0.win 1).blk t).view.set ↔ ∀ a : Fin 2, win0_1.index t a * S8000x16.size a ≤ (i a).val
      ∧ (i a).val < win0_1.index t a * S8000x16.size a + S8000x16.size a := by
  show i ∈ ((View.whole main_v0).slice (win0_1.rect t)).set ↔ _
  rw [View.set_slice_whole, Rect.mem_set_unit]
  exact Iff.rfl

/-- Every index of the result array lies in some point's block: row R in the block of point R / 8000. -/
theorem covered (i : S3200000x16.Idx) :
    ∃ t : Fin cfg0.N, (cfg0.win 1).flush t = true ∧ i ∈ ((cfg0.win 1).blk t).view.set := by
  have hi0 : (i 0).val < 3200000 := (i 0).isLt
  have hi1 : (i 1).val < 16 := (i 1).isLt
  have hN : cfg0.N = 400 := N_0
  have hq : (i 0).val / 8000 < cfg0.N := by rw [hN]; omega
  obtain ⟨-, -, e2, e3⟩ := idx_facts ⟨(i 0).val / 8000, hq⟩
  refine ⟨⟨(i 0).val / 8000, hq⟩, flush0_1 _, ?_⟩
  rw [mem_blk]
  intro a
  match a with
  | ⟨0, _⟩ =>
    show win0_1.index ⟨(i 0).val / 8000, hq⟩ (0 : Fin 2) * 8000 ≤ (i 0).val
      ∧ (i 0).val < win0_1.index ⟨(i 0).val / 8000, hq⟩ (0 : Fin 2) * 8000 + 8000
    rw [e2]; show (i 0).val / 8000 * 8000 ≤ (i 0).val ∧ (i 0).val < (i 0).val / 8000 * 8000 + 8000; omega
  | ⟨1, _⟩ =>
    show win0_1.index ⟨(i 0).val / 8000, hq⟩ (1 : Fin 2) * 16 ≤ (i 1).val
      ∧ (i 1).val < win0_1.index ⟨(i 0).val / 8000, hq⟩ (1 : Fin 2) * 16 + 16
    rw [e3]; omega

/-- The result array after the run is `G` of the argument array. -/
theorem final (c : Dev nD) : (dats m 0 c).arrAt 1 cfg0.N = G (V m c main_arg0) :=
  (dats m 0 c).arrAt_eq_of_cover 1 (G (V m c main_arg0)) (fun t _ => flushed_eq m c t) covered

/-- The kernel's run, read: the result array ends as `G` of the argument array, the argument unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.ArrayValue

end
-- ==== Proof.RefRead.lean ====
/-
  The host program read at an index: entry (r, n) of its result is harmonic `n` of row `r` of the argument, each
  component DIVIDED by the clamped norm max (sqrt (0 + Σₖ X(r,k)²)) ε.

  The program computes on three length-N vectors (the columns of X / norm), builds sixteen length-N vectors from
  them by pointwise arithmetic, turns each into an [N,1] column and joins the columns along axis 1. Read backwards
  from the result: the join picks column `n` at (r, 0); the column is its vector at r; the vector at r is the
  polynomial of the three components at r; a component at r is the quotient X(r,k) / norm(r), where the norm's
  sum of squares runs over the row's three entries.
-/
import proofs.«105756_j2241972929171_2_alg».proof.Proof.Gen.ReferenceIdeal.Read
import proofs.«105756_j2241972929171_2_alg».proof.Proof.SHSpec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Cert.SH
open Idealize.ShloMosaic Idealize.ShloMosaic.ValueIdx

variable (X : (⟨S3200000x3, .f32⟩ : BufTy).Contents (Elt Ideal))

/-! ## The unit vector's components -/

/-- Column `k` of the row's entry in the normalised array sits at (r, k) of the argument; the norm's sum runs over the
    same row. Both index identities are coordinate by coordinate (a reshape of [N,1] to [N] keeps the position r / 1). -/
theorem comp_idx0 (i : S3200000.Idx) : idx_main_v5 (idx_main_v6 i) = ix2 (n0 := 3200000) (n1 := 3) (i 0) 0 :=
  funext fun a => by match a with | ⟨0, _⟩ => exact Fin.ext (Nat.div_one _) | ⟨1, _⟩ => rfl
theorem comp_idx1 (i : S3200000.Idx) : idx_main_v7 (idx_main_v8 i) = ix2 (n0 := 3200000) (n1 := 3) (i 0) 1 :=
  funext fun a => by match a with | ⟨0, _⟩ => exact Fin.ext (Nat.div_one _) | ⟨1, _⟩ => rfl
theorem comp_idx2 (i : S3200000.Idx) : idx_main_v9 (idx_main_v10 i) = ix2 (n0 := 3200000) (n1 := 3) (i 0) 2 :=
  funext fun a => by match a with | ⟨0, _⟩ => exact Fin.ext (Nat.div_one _) | ⟨1, _⟩ => rfl

/-- The clamped norm at any entry (r, k) of the broadcast denominator is the row's. -/
theorem den_apply (j : S3200000x3.Idx) :
    val_main_v3 (F := Ideal) X j = clampNorm (fun k => X (ix2 (n0 := 3200000) (n1 := 3) (j 0) k)) := by
  rw [val_main_v3_apply, val_main_v2_apply, val_main_v0_apply, val_main_call0_v2_apply, val_main_call0_v1_apply,
    val_main_v1_apply, val_main_cst_apply, val_main_call0_cst_apply]
  simp only [val_main_call0_v0_apply]
  have e : ∀ k : Fin 3, idx_main_call0_v1 (idx_main_call0_v2 (idx_main_v3 j)) k
      = ix2 (n0 := 3200000) (n1 := 3) (j 0) k :=
    fun k => funext fun a => by match a with | ⟨0, _⟩ => rfl | ⟨1, _⟩ => rfl
  simp only [e]
  rfl

theorem comp0 (i : S3200000.Idx) : val_main_v6 (F := Ideal) X i
    = Ideal.div (X (ix2 (n0 := 3200000) (n1 := 3) (i 0) 0)) (clampNorm (fun k => X (ix2 (n0 := 3200000) (n1 := 3) (i 0) k))) := by
  rw [val_main_v6_apply, val_main_v5_apply, val_main_v4_apply, den_apply, comp_idx0]
  rfl
theorem comp1 (i : S3200000.Idx) : val_main_v8 (F := Ideal) X i
    = Ideal.div (X (ix2 (n0 := 3200000) (n1 := 3) (i 0) 1)) (clampNorm (fun k => X (ix2 (n0 := 3200000) (n1 := 3) (i 0) k))) := by
  rw [val_main_v8_apply, val_main_v7_apply, val_main_v4_apply, den_apply, comp_idx1]
  rfl
theorem comp2 (i : S3200000.Idx) : val_main_v10 (F := Ideal) X i
    = Ideal.div (X (ix2 (n0 := 3200000) (n1 := 3) (i 0) 2)) (clampNorm (fun k => X (ix2 (n0 := 3200000) (n1 := 3) (i 0) k))) := by
  rw [val_main_v10_apply, val_main_v9_apply, val_main_v4_apply, den_apply, comp_idx2]
  rfl

/-! ## The sixteen vectors are the sixteen polynomials of the components -/

/-- The sixteen length-N vectors, in the order the program joins them. -/
def vecs : Fin 16 → (S3200000.Idx → Elt Ideal .f32)
  | ⟨0, _⟩ => val_main_v11 (F := Ideal)
  | ⟨1, _⟩ => val_main_v13 (F := Ideal) X
  | ⟨2, _⟩ => val_main_v15 (F := Ideal) X
  | ⟨3, _⟩ => val_main_v17 (F := Ideal) X
  | ⟨4, _⟩ => val_main_v24 (F := Ideal) X
  | ⟨5, _⟩ => val_main_v27 (F := Ideal) X
  | ⟨6, _⟩ => val_main_v32 (F := Ideal) X
  | ⟨7, _⟩ => val_main_v35 (F := Ideal) X
  | ⟨8, _⟩ => val_main_v40 (F := Ideal) X
  | ⟨9, _⟩ => val_main_v45 (F := Ideal) X
  | ⟨10, _⟩ => val_main_v48 (F := Ideal) X
  | ⟨11, _⟩ => val_main_v54 (F := Ideal) X
  | ⟨12, _⟩ => val_main_v62 (F := Ideal) X
  | ⟨13, _⟩ => val_main_v68 (F := Ideal) X
  | ⟨14, _⟩ => val_main_v71 (F := Ideal) X
  | ⟨15, _⟩ => val_main_v76 (F := Ideal) X
  | ⟨k + 16, h⟩ => absurd h (Nat.not_lt.2 (Nat.le_add_left 16 k))

/-- Vector `n` at r is polynomial `n` of the three components at r: the program's pointwise operations are the
    polynomial's, in the same order, on the same coefficient words. Each case opens the vector's own stages, latest
    first, down to the three components and the words; what is left differs from the polynomial only in how the
    arithmetic of the extended reals is named. -/
theorem vecs_apply (i : S3200000.Idx) (n : Fin 16) :
    vecs X n i = sh (val_main_v6 (F := Ideal) X i) (val_main_v8 (F := Ideal) X i) (val_main_v10 (F := Ideal) X i) n := by
  match n with
  | ⟨0, _⟩ =>
    show val_main_v11 (F := Ideal) i = _
    rw [val_main_v11_apply, val_main_cst_0_apply]
    rfl
  | ⟨1, _⟩ =>
    show val_main_v13 (F := Ideal) X i = _
    rw [val_main_v13_apply, val_main_v12_apply, val_main_cst_1_apply]
    rfl
  | ⟨2, _⟩ =>
    show val_main_v15 (F := Ideal) X i = _
    rw [val_main_v15_apply, val_main_v14_apply, val_main_cst_2_apply]
    rfl
  | ⟨3, _⟩ =>
    show val_main_v17 (F := Ideal) X i = _
    rw [val_main_v17_apply, val_main_v16_apply, val_main_cst_3_apply]
    rfl
  | ⟨4, _⟩ =>
    show val_main_v24 (F := Ideal) X i = _
    rw [val_main_v24_apply, val_main_v23_apply, val_main_v22_apply, val_main_cst_4_apply]
    rfl
  | ⟨5, _⟩ =>
    show val_main_v27 (F := Ideal) X i = _
    rw [val_main_v27_apply, val_main_v26_apply, val_main_v25_apply, val_main_cst_5_apply]
    rfl
  | ⟨6, _⟩ =>
    show val_main_v32 (F := Ideal) X i = _
    rw [val_main_v32_apply, val_main_v31_apply, val_main_v30_apply, val_main_v29_apply, val_main_v28_apply, val_main_v21_apply, val_main_v20_apply, val_main_v19_apply, val_main_v18_apply, val_main_cst_7_apply, val_main_cst_6_apply]
    rfl
  | ⟨7, _⟩ =>
    show val_main_v35 (F := Ideal) X i = _
    rw [val_main_v35_apply, val_main_v34_apply, val_main_v33_apply, val_main_cst_8_apply]
    rfl
  | ⟨8, _⟩ =>
    show val_main_v40 (F := Ideal) X i = _
    rw [val_main_v40_apply, val_main_v39_apply, val_main_v38_apply, val_main_v37_apply, val_main_v36_apply, val_main_cst_9_apply]
    rfl
  | ⟨9, _⟩ =>
    show val_main_v45 (F := Ideal) X i = _
    rw [val_main_v45_apply, val_main_v44_apply, val_main_v43_apply, val_main_v42_apply, val_main_v41_apply, val_main_v40_apply, val_main_v39_apply, val_main_v38_apply, val_main_v37_apply, val_main_v36_apply, val_main_v24_apply, val_main_v23_apply, val_main_v22_apply, val_main_cst_10_apply, val_main_cst_4_apply, val_main_cst_9_apply]
    rfl
  | ⟨10, _⟩ =>
    show val_main_v48 (F := Ideal) X i = _
    rw [val_main_v48_apply, val_main_v47_apply, val_main_v46_apply, val_main_v24_apply, val_main_v23_apply, val_main_v22_apply, val_main_cst_11_apply, val_main_cst_4_apply]
    rfl
  | ⟨11, _⟩ =>
    show val_main_v54 (F := Ideal) X i = _
    rw [val_main_v54_apply, val_main_v53_apply, val_main_v52_apply, val_main_v51_apply, val_main_v50_apply, val_main_v49_apply, val_main_v21_apply, val_main_v20_apply, val_main_v19_apply, val_main_v18_apply, val_main_cst_13_apply, val_main_cst_12_apply]
    rfl
  | ⟨12, _⟩ =>
    show val_main_v62 (F := Ideal) X i = _
    rw [val_main_v62_apply, val_main_v61_apply, val_main_v60_apply, val_main_v59_apply, val_main_v58_apply, val_main_v57_apply, val_main_v56_apply, val_main_v55_apply, val_main_v21_apply, val_main_v20_apply, val_main_v19_apply, val_main_v18_apply, val_main_cst_14_apply, val_main_cst_15_apply, val_main_cst_16_apply]
    rfl
  | ⟨13, _⟩ =>
    show val_main_v68 (F := Ideal) X i = _
    rw [val_main_v68_apply, val_main_v67_apply, val_main_v66_apply, val_main_v65_apply, val_main_v64_apply, val_main_v63_apply, val_main_v21_apply, val_main_v20_apply, val_main_v19_apply, val_main_v18_apply, val_main_cst_17_apply, val_main_cst_18_apply]
    rfl
  | ⟨14, _⟩ =>
    show val_main_v71 (F := Ideal) X i = _
    rw [val_main_v71_apply, val_main_v70_apply, val_main_v69_apply, val_main_v40_apply, val_main_v39_apply, val_main_v38_apply, val_main_v37_apply, val_main_v36_apply, val_main_cst_19_apply, val_main_cst_9_apply]
    rfl
  | ⟨15, _⟩ =>
    show val_main_v76 (F := Ideal) X i = _
    rw [val_main_v76_apply, val_main_v75_apply, val_main_v74_apply, val_main_v73_apply, val_main_v72_apply, val_main_v40_apply, val_main_v39_apply, val_main_v38_apply, val_main_v37_apply, val_main_v36_apply, val_main_v24_apply, val_main_v23_apply, val_main_v22_apply, val_main_cst_20_apply, val_main_cst_9_apply, val_main_cst_4_apply]
    rfl
  | ⟨k + 16, h⟩ => exact absurd h (Nat.not_lt.2 (Nat.le_add_left 16 k))

/-! ## The join -/

/-- The sixteen [N,1] columns the program joins. -/
def cols : Fin 16 → (S3200000x1.Idx → Elt Ideal .f32)
  | ⟨0, _⟩ => val_main_v77 (F := Ideal)
  | ⟨1, _⟩ => val_main_v78 (F := Ideal) X
  | ⟨2, _⟩ => val_main_v79 (F := Ideal) X
  | ⟨3, _⟩ => val_main_v80 (F := Ideal) X
  | ⟨4, _⟩ => val_main_v81 (F := Ideal) X
  | ⟨5, _⟩ => val_main_v82 (F := Ideal) X
  | ⟨6, _⟩ => val_main_v83 (F := Ideal) X
  | ⟨7, _⟩ => val_main_v84 (F := Ideal) X
  | ⟨8, _⟩ => val_main_v85 (F := Ideal) X
  | ⟨9, _⟩ => val_main_v86 (F := Ideal) X
  | ⟨10, _⟩ => val_main_v87 (F := Ideal) X
  | ⟨11, _⟩ => val_main_v88 (F := Ideal) X
  | ⟨12, _⟩ => val_main_v89 (F := Ideal) X
  | ⟨13, _⟩ => val_main_v90 (F := Ideal) X
  | ⟨14, _⟩ => val_main_v91 (F := Ideal) X
  | ⟨15, _⟩ => val_main_v92 (F := Ideal) X
  | ⟨k + 16, h⟩ => absurd h (Nat.not_lt.2 (Nat.le_add_left 16 k))

/-- A column's entry (r, 0) is position r of its vector: the column is the vector with a unit axis added. -/
theorem cols_apply (r : Fin 3200000) (n : Fin 16) :
    cols X n (ix2 (n0 := 3200000) (n1 := 1) r 0) = vecs X n (ix1 r) := by
  match n with
  | ⟨0, _⟩ =>
    show val_main_v77 (F := Ideal) (ix2 (n0 := 3200000) (n1 := 1) r 0) = val_main_v11 (F := Ideal) (ix1 r)
    rw [val_main_v77_apply]
    exact congrArg _ (funext fun a => by match a with | ⟨0, _⟩ => rfl)
  | ⟨1, _⟩ =>
    show val_main_v78 (F := Ideal) X (ix2 (n0 := 3200000) (n1 := 1) r 0) = val_main_v13 (F := Ideal) X (ix1 r)
    rw [val_main_v78_apply]
    exact congrArg _ (funext fun a => by match a with | ⟨0, _⟩ => rfl)
  | ⟨2, _⟩ =>
    show val_main_v79 (F := Ideal) X (ix2 (n0 := 3200000) (n1 := 1) r 0) = val_main_v15 (F := Ideal) X (ix1 r)
    rw [val_main_v79_apply]
    exact congrArg _ (funext fun a => by match a with | ⟨0, _⟩ => rfl)
  | ⟨3, _⟩ =>
    show val_main_v80 (F := Ideal) X (ix2 (n0 := 3200000) (n1 := 1) r 0) = val_main_v17 (F := Ideal) X (ix1 r)
    rw [val_main_v80_apply]
    exact congrArg _ (funext fun a => by match a with | ⟨0, _⟩ => rfl)
  | ⟨4, _⟩ =>
    show val_main_v81 (F := Ideal) X (ix2 (n0 := 3200000) (n1 := 1) r 0) = val_main_v24 (F := Ideal) X (ix1 r)
    rw [val_main_v81_apply]
    exact congrArg _ (funext fun a => by match a with | ⟨0, _⟩ => rfl)
  | ⟨5, _⟩ =>
    show val_main_v82 (F := Ideal) X (ix2 (n0 := 3200000) (n1 := 1) r 0) = val_main_v27 (F := Ideal) X (ix1 r)
    rw [val_main_v82_apply]
    exact congrArg _ (funext fun a => by match a with | ⟨0, _⟩ => rfl)
  | ⟨6, _⟩ =>
    show val_main_v83 (F := Ideal) X (ix2 (n0 := 3200000) (n1 := 1) r 0) = val_main_v32 (F := Ideal) X (ix1 r)
    rw [val_main_v83_apply]
    exact congrArg _ (funext fun a => by match a with | ⟨0, _⟩ => rfl)
  | ⟨7, _⟩ =>
    show val_main_v84 (F := Ideal) X (ix2 (n0 := 3200000) (n1 := 1) r 0) = val_main_v35 (F := Ideal) X (ix1 r)
    rw [val_main_v84_apply]
    exact congrArg _ (funext fun a => by match a with | ⟨0, _⟩ => rfl)
  | ⟨8, _⟩ =>
    show val_main_v85 (F := Ideal) X (ix2 (n0 := 3200000) (n1 := 1) r 0) = val_main_v40 (F := Ideal) X (ix1 r)
    rw [val_main_v85_apply]
    exact congrArg _ (funext fun a => by match a with | ⟨0, _⟩ => rfl)
  | ⟨9, _⟩ =>
    show val_main_v86 (F := Ideal) X (ix2 (n0 := 3200000) (n1 := 1) r 0) = val_main_v45 (F := Ideal) X (ix1 r)
    rw [val_main_v86_apply]
    exact congrArg _ (funext fun a => by match a with | ⟨0, _⟩ => rfl)
  | ⟨10, _⟩ =>
    show val_main_v87 (F := Ideal) X (ix2 (n0 := 3200000) (n1 := 1) r 0) = val_main_v48 (F := Ideal) X (ix1 r)
    rw [val_main_v87_apply]
    exact congrArg _ (funext fun a => by match a with | ⟨0, _⟩ => rfl)
  | ⟨11, _⟩ =>
    show val_main_v88 (F := Ideal) X (ix2 (n0 := 3200000) (n1 := 1) r 0) = val_main_v54 (F := Ideal) X (ix1 r)
    rw [val_main_v88_apply]
    exact congrArg _ (funext fun a => by match a with | ⟨0, _⟩ => rfl)
  | ⟨12, _⟩ =>
    show val_main_v89 (F := Ideal) X (ix2 (n0 := 3200000) (n1 := 1) r 0) = val_main_v62 (F := Ideal) X (ix1 r)
    rw [val_main_v89_apply]
    exact congrArg _ (funext fun a => by match a with | ⟨0, _⟩ => rfl)
  | ⟨13, _⟩ =>
    show val_main_v90 (F := Ideal) X (ix2 (n0 := 3200000) (n1 := 1) r 0) = val_main_v68 (F := Ideal) X (ix1 r)
    rw [val_main_v90_apply]
    exact congrArg _ (funext fun a => by match a with | ⟨0, _⟩ => rfl)
  | ⟨14, _⟩ =>
    show val_main_v91 (F := Ideal) X (ix2 (n0 := 3200000) (n1 := 1) r 0) = val_main_v71 (F := Ideal) X (ix1 r)
    rw [val_main_v91_apply]
    exact congrArg _ (funext fun a => by match a with | ⟨0, _⟩ => rfl)
  | ⟨15, _⟩ =>
    show val_main_v92 (F := Ideal) X (ix2 (n0 := 3200000) (n1 := 1) r 0) = val_main_v76 (F := Ideal) X (ix1 r)
    rw [val_main_v92_apply]
    exact congrArg _ (funext fun a => by match a with | ⟨0, _⟩ => rfl)
  | ⟨k + 16, h⟩ => exact absurd h (Nat.not_lt.2 (Nat.le_add_left 16 k))

/-- The joined array at (r, n) is column `n` at (r, 0). -/
theorem out_apply (r : Fin 3200000) (n : Fin 16) :
    val_main_v93 (F := Ideal) X (ix2 (n0 := 3200000) (n1 := 16) r n) = cols X n (ix2 (n0 := 3200000) (n1 := 1) r 0) := by
  unfold val_main_v93
  show concatenate S3200000x16 1 (List.ofFn fun n : Fin 16 => (⟨S3200000x1, cols X n⟩ : (s : Shape) × (s.Idx → Elt Ideal .f32))) _
    (ix2 (n0 := 3200000) (n1 := 16) r n) = _
  exact concatenate_ofFn_unit_apply (t := S3200000x16) (s₁ := S3200000x1) (1 : Fin 2) (cols X) _ rfl rfl
    (ix2 (n0 := 3200000) (n1 := 16) r n) n rfl (ix2 (n0 := 3200000) (n1 := 1) r 0)
    (fun b hb => by match b with | ⟨0, _⟩ => rfl | ⟨1, _⟩ => exact absurd rfl hb)

/-! ## The result is the specification -/

theorem out_eq_shDiv (r : Fin 3200000) (n : Fin 16) :
    val_main_v93 (F := Ideal) X (ix2 (n0 := 3200000) (n1 := 16) r n) = shDiv (fun k => X (ix2 (n0 := 3200000) (n1 := 3) r k)) n := by
  rw [out_apply, cols_apply, vecs_apply, comp0, comp1, comp2]
  rfl

/-- The host program's result array is `G` of its argument. -/
theorem out_eq_G : val_main_v93 (F := Ideal) X = G X := by
  funext i
  obtain ⟨r, n, rfl⟩ : ∃ (r : Fin 3200000) (n : Fin 16), i = ix2 r n := ⟨i 0, i 1, eq_ix2 i⟩
  rw [out_eq_shDiv]
  exact (shMul_eq_shDiv _ _).symm

end Cert.ReferenceIdeal.RefValue

end
-- ==== Proof.lean ====
/-
  A grid of 400 points computes, row by row, the sixteen real spherical harmonics (degrees 0 to 3) of the normalised
  rows of a [3200000,3] array; the host program computes the same from whole-array operations.

  Both programs normalise a row (a, b, c) by d = max (sqrt (a² + b² + c²)) ε and evaluate the same sixteen polynomials
  of the unit vector, operation for operation, with the same coefficient words. They differ in three places. The grid
  program multiplies each component by the reciprocal 1 / d where the host divides by d: since d ≥ ε > 0, d is not
  zero, and off zero x / d = x · d⁻¹ and 1 / d = d⁻¹ on the extended reals, so the two agree at every extended real
  (the precondition is not needed for it). The grid program adds the squares as (a² + b²) + c² where the host sums
  0 + Σₖ over the row: one extended real. And the grid program works on transposed blocks of 8000 rows — three
  lanes in, sixteen lanes stacked and transposed back — where the host slices columns and joins sixteen columns: both
  put harmonic n of row r at entry (r, n).

  So each side's result array is one function `G` of the argument array (SHSpec): the host's by reading its run back
  stage by stage at an index (RefRead), the grid's by reading what a point leaves in its block (KernelRead) and then
  the blocks into the array, whose rows they cover (KernelArray). The idealisation rewrote nothing, so the programs'
  correspondence is trivial, and the three frames are the generated runs.
-/
import proofs.«105756_j2241972929171_2_alg».proof.Defs
import proofs.«105756_j2241972929171_2_alg».proof.Proof.Gen.Kernel
import proofs.«105756_j2241972929171_2_alg».proof.Proof.Gen.Kernel.Skeleton
import proofs.«105756_j2241972929171_2_alg».proof.Proof.Gen.Kernel.Launch
import proofs.«105756_j2241972929171_2_alg».proof.Proof.Gen.Kernel.Points
import proofs.«105756_j2241972929171_2_alg».proof.Proof.Gen.Kernel.Frame
import proofs.«105756_j2241972929171_2_alg».proof.Proof.Gen.KernelIdeal
import proofs.«105756_j2241972929171_2_alg».proof.Proof.Gen.KernelIdeal.Skeleton
import proofs.«105756_j2241972929171_2_alg».proof.Proof.Gen.KernelIdeal.Launch
import proofs.«105756_j2241972929171_2_alg».proof.Proof.Gen.KernelIdeal.Points
import proofs.«105756_j2241972929171_2_alg».proof.Proof.Gen.KernelIdeal.Frame
import proofs.«105756_j2241972929171_2_alg».proof.Proof.Gen.ReferenceIdeal
import proofs.«105756_j2241972929171_2_alg».proof.Proof.Gen.Pre_finite_inputs
import proofs.«105756_j2241972929171_2_alg».proof.Proof.Gen.ReferenceIdeal.Run
import proofs.«105756_j2241972929171_2_alg».proof.Proof.Gen.ReferenceIdeal.Read
import proofs.«105756_j2241972929171_2_alg».proof.Proof.KernelArray
import proofs.«105756_j2241972929171_2_alg».proof.Proof.RefRead
import Idealize.ShloMosaic.Adequacy
import Idealize.ShloMosaic.Init

noncomputable section

namespace Cert.Proof

open Idealize.ShloMosaic Idealize.ShloMosaic.TcCoe Idealize.SL.Sem

/-- The word-level program runs and leaves its argument as it was. -/
theorem frame_kernel : Cert.frame_Kernel := fun m ρ _ => Cert.Kernel.Gen.frame m ρ

/-- So does the idealised one. -/
theorem frame_kernel_ideal : Cert.frame_KernelIdeal := fun m ρ _ => Cert.KernelIdeal.Gen.frame m ρ

/-- The host program's run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories agreeing on the argument, both programs end with the result array at `G` of the argument: the grid
    program by its run read block by block, the host program by its run read stage by stage. -/
theorem algebraic : Cert.algebraic_KernelIdeal_ReferenceIdeal := by
  intro m ρ m' ρ' _ hagree
  refine ⟨fun c => Cert.SH.G (m ((c.tc : Thread Cert.KernelIdeal.nD Cert.KernelIdeal.τ).loc Cert.KernelIdeal.main_arg0)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v93_eq, Cert.ReferenceIdeal.RefValue.out_eq_G, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
